-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1600000x129 : Shape := ⟨2, ![1600000, 129]⟩
abbrev S50000x129 : Shape := ⟨2, ![50000, 129]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 38
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S1600000x1, .f32⟩
  | .hbm, ⟨18, _⟩ => ⟨S1600000x129, .f32⟩
  | .hbm, ⟨19, _⟩ => ⟨S_, .f32⟩
  | .hbm, ⟨20, _⟩ => ⟨S50000x129, .f32⟩
  | .hbm, ⟨21, _⟩ => ⟨S1600000x1, .i32⟩
  | .hbm, ⟨22, _⟩ => ⟨S50000x129, .f32⟩
  | .hbm, ⟨23, _⟩ => ⟨S50000x128, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S1x128, .f32⟩
  | .hbm, ⟨36, _⟩ => ⟨S1x128, .f32⟩
  | .hbm, ⟨37, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  concatenates_S1600000x128_S1600000x1_S1600000x129_d1 : Shape.Concatenates [S1600000x128, S1600000x1] S1600000x129 1
  bcast_S_S50000x129 : S_.BroadcastsInDim S50000x129 (![] : Fin 0 → Fin S50000x129.rank)
  slices_S50000x129_S50000x128_0_0 : S50000x129.Slices ![0, 0] S50000x128
  slices_S50000x129_S50000x1_0_128 : S50000x129.Slices ![0, 128] S50000x1
  bcast_S_S50000x1 : S_.BroadcastsInDim S50000x1 (![] : Fin 0 → Fin S50000x1.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x129_S1600000x1_S1600000x129_1_0_0_1_wf : ScatterDims.WF S50000x129 S1600000x1 S1600000x129 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x129_S1600000x1_S1600000x129_1_0_0_1 : ScatterDims S50000x129 S1600000x1 S1600000x129 where
  updateWindowDims := [1]
  insertedWindowDims := [0]
  scatterDimsToOperandDims := [0]
  indexVectorDim := 1
  wf := scatter_S50000x129_S1600000x1_S1600000x129_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.SageSpec.lean ====
/-
  The mean-aggregator layer as one function of its arrays, over the extended reals.

  For node v and output feature o,
      out[v, o] = (∑ₖ feat[v, k] · Wself[o, k] + bself[o]) + (∑ₖ (S[v, k] / max(D[v], 1)) · Wneigh[o, k] + bneigh[o]),
  where S[v, k] = ∑ { msg[e, k] : edges e with dst[e] = v } is the sum of the messages arriving at v and
  D[v] = ∑ { 1 : edges e with dst[e] = v } is v's in-degree; a destination outside [0, 50000) belongs to no node.
  msg is the array of gathered source rows; nothing here depends on how it was gathered, so it stays a variable.

  The one algebraic law between the two programs is here too: multiplying by the reciprocal 1 / d is dividing by d,
  for every extended real numerator, as soon as d ≥ 1 (the in-degree clamped below by 1 is never 0).
-/
import Idealize.ShloMosaic.PureOps.Ideal
import Idealize.ShloMosaic.Lib.ValueIdx

noncomputable section

open scoped BigOperators

namespace Cert.Sage

open Idealize.ShloMosaic Idealize.ShloMosaic.ValueIdx

/-- The f32 pattern of 1.0 denotes the extended real 1. -/
theorem one_f32 : Ideal.ofBits .f32 0x3F800000#32 = 1 := by
  simp [Ideal.ofBits, Ideal.ieee, -EReal.coe_mul]; norm_num

/-- The edges whose destination is node v: the destination column read signed, never clamped. -/
abbrev into (dst : IVec ⟨2, ![1600000, 1]⟩ 32) (v : Fin 50000) : Finset (Fin 1600000) :=
  Finset.univ.filter (fun e : Fin 1600000 => (dst (ix2 e 0)).toInt = (v.val : Int))

/-- S[v, k]: the sum of feature k of the messages arriving at node v. -/
def nbrSum (msg : (⟨2, ![1600000, 128]⟩ : Shape).Idx → EReal) (dst : IVec ⟨2, ![1600000, 1]⟩ 32) (v : Fin 50000)
    (k : Fin 128) : EReal :=
  ∑ e ∈ into dst v, msg (ix2 e k)

/-- D[v]: node v's in-degree, as the sum of one 1.0 per arriving edge. -/
def inDeg (dst : IVec ⟨2, ![1600000, 1]⟩ 32) (v : Fin 50000) : EReal :=
  ∑ _e ∈ into dst v, Ideal.ofBits .f32 0x3F800000#32

attribute [irreducible] nbrSum inDeg

/-- The layer's result array. -/
def out (feat : (⟨2, ![50000, 128]⟩ : Shape).Idx → EReal) (msg : (⟨2, ![1600000, 128]⟩ : Shape).Idx → EReal)
    (dst : IVec ⟨2, ![1600000, 1]⟩ 32) (wSelf : (⟨2, ![128, 128]⟩ : Shape).Idx → EReal)
    (bSelf : (⟨1, ![128]⟩ : Shape).Idx → EReal) (wNeigh : (⟨2, ![128, 128]⟩ : Shape).Idx → EReal)
    (bNeigh : (⟨1, ![128]⟩ : Shape).Idx → EReal) : (⟨2, ![50000, 128]⟩ : Shape).Idx → EReal := fun i =>
  (∑ k : Fin 128, feat (ix2 (i 0) k) * wSelf (ix2 (i 1) k) + bSelf (ix1 (i 1))) +
  (∑ k : Fin 128, Ideal.div (nbrSum msg dst (i 0) k) (max (inDeg dst (i 0)) (Ideal.ofBits .f32 0x3F800000#32))
      * wNeigh (ix2 (i 1) k) + bNeigh (ix1 (i 1)))

/-- The result at node r and output feature q, with the coordinates written out. -/
theorem out_apply (feat : (⟨2, ![50000, 128]⟩ : Shape).Idx → EReal) (msg : (⟨2, ![1600000, 128]⟩ : Shape).Idx → EReal)
    (dst : IVec ⟨2, ![1600000, 1]⟩ 32) (wSelf : (⟨2, ![128, 128]⟩ : Shape).Idx → EReal)
    (bSelf : (⟨1, ![128]⟩ : Shape).Idx → EReal) (wNeigh : (⟨2, ![128, 128]⟩ : Shape).Idx → EReal)
    (bNeigh : (⟨1, ![128]⟩ : Shape).Idx → EReal) (r : Fin 50000) (q : Fin 128) :
    out feat msg dst wSelf bSelf wNeigh bNeigh (ix2 r q) =
      (∑ k : Fin 128, feat (ix2 r k) * wSelf (ix2 q k) + bSelf (ix1 q)) +
      (∑ k : Fin 128, Ideal.div (nbrSum msg dst r k) (max (inDeg dst r) (Ideal.ofBits .f32 0x3F800000#32))
          * wNeigh (ix2 q k) + bNeigh (ix1 q)) := rfl

/-- MULTIPLYING BY THE RECIPROCAL IS DIVIDING, for a divisor clamped below by 1: d = max x 1 is at least 1, so it is
    not 0, both quotients are products with d⁻¹, and 1 · d⁻¹ = d⁻¹. No finiteness of a or x is needed. -/
theorem mul_recip_clamped (a x : EReal) :
    a * Ideal.div (Ideal.ofBits .f32 0x3F800000#32) (max x (Ideal.ofBits .f32 0x3F800000#32)) =
      Ideal.div a (max x (Ideal.ofBits .f32 0x3F800000#32)) := by
  rw [one_f32]
  have hd : max x (1 : EReal) ≠ 0 := by
    have h1 : (1 : EReal) ≤ max x 1 := le_max_right x 1
    intro h0
    rw [h0] at h1
    exact absurd h1 (by norm_num)
  rw [Ideal.div, if_neg hd, Ideal.div, if_neg hd, one_mul]

end Cert.Sage

end
-- ==== Proof.RefIsSage.lean ====
/-
  The reference program computes the layer's function (SageSpec's out), index by index.

  Its two scatters are read by the row-scatter lemma: the message sum at (v, k) is the sum of msg[e, k] over the edges
  arriving at v, and the degree at v is one 1.0 per arriving edge; both start from an array of zeros. The quotient,
  the two matrix products against the transposed weights and the biases are then the specification's terms verbatim,
  once each operation is read at an index.
-/
import proofs.«150576_j15977278341798_2_alg».proof.Proof.Gen.ReferenceIdeal.Read
import proofs.«150576_j15977278341798_2_alg».proof.Proof.LibScatterRows
import proofs.«150576_j15977278341798_2_alg».proof.Proof.SageSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.ScatterRows Cert.Sage

/-- The reference's message sum at (v, k) is the sum over the edges arriving at v. -/
theorem msgSum_apply (x0 : (⟨S50000x128, .f32⟩ : BufTy).Contents (Elt Ideal)) (x1 x2 : (⟨S1600000, .i32⟩ : BufTy).Contents (Elt Ideal))
    (v : Fin 50000) (k : Fin 128) :
    val_main_v9 (F := Ideal) x0 x1 x2 (ix2 v k) =
      nbrSum (val_main_v6 (F := Ideal) x0 x1) (val_main_v8 (F := Ideal) x2) v k := by
  unfold val_main_v9 nbrSum
  rw [host_scatterAdd_rows_apply scatter_S50000x128_S1600000x1_S1600000x128_1_0_0_1 rfl rfl rfl rfl,
    val_main_v7_apply, val_main_cst_apply, Ideal.ofBits_def, Ideal.ofBits_zero_f32, zero_add]

/-- The reference's degree at v is one 1.0 per edge arriving at v. -/
theorem degree_apply (x2 : (⟨S1600000, .i32⟩ : BufTy).Contents (Elt Ideal)) (v : Fin 50000) :
    val_main_v13 (F := Ideal) x2 (ix1 v) = inDeg (val_main_v8 (F := Ideal) x2) v := by
  have e12 : val_main_v12 (F := Ideal) x2 = val_main_v8 (F := Ideal) x2 := rfl
  unfold val_main_v13 inDeg
  rw [e12, host_scatterAdd_vec_apply scatter_S50000_S1600000x1_S1600000_n_0_0_1 rfl rfl rfl rfl,
    val_main_v11_apply, val_main_cst_2_apply, Ideal.ofBits_def, Ideal.ofBits_zero_f32, zero_add]
  refine Finset.sum_congr rfl fun e _ => ?_
  rw [val_main_v10_apply, val_main_cst_1_apply, Ideal.ofBits_def]

/-- THE REFERENCE IS THE LAYER'S FUNCTION of the feature array, the gathered messages, the destination column, the
    two weight matrices and the two biases. -/
theorem ref_is_out (x0 : (⟨S50000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v29 (F := Ideal) x0 x1 x2 x3 x4 x5 x6 =
      out x0 (val_main_v6 (F := Ideal) x0 x1) (val_main_v8 (F := Ideal) x2) x3 x4 x5 x6 := by
  funext i
  obtain ⟨r, q, rfl⟩ : ∃ (r : Fin 50000) (q : Fin 128), i = ix2 r q := ⟨i 0, i 1, eq_ix2 i⟩
  have eL : ∀ k : Fin 128, lidx_main_v25 (ix2 r q) k = ix2 r k := fun k =>
    funext fun a => by match a with | ⟨0, _⟩ => rfl | ⟨1, _⟩ => rfl
  have eR : ∀ k : Fin 128, idx_main_v24 (ridx_main_v25 (ix2 r q) k) = ix2 q k := fun k =>
    funext fun a => by match a with | ⟨0, _⟩ => rfl | ⟨1, _⟩ => rfl
  have eL' : ∀ k : Fin 128, lidx_main_v20 (ix2 r q) k = ix2 r k := fun k =>
    funext fun a => by match a with | ⟨0, _⟩ => rfl | ⟨1, _⟩ => rfl
  have eR' : ∀ k : Fin 128, idx_main_v19 (ridx_main_v20 (ix2 r q) k) = ix2 q k := fun k =>
    funext fun a => by match a with | ⟨0, _⟩ => rfl | ⟨1, _⟩ => rfl
  have eB : idx_main_v26 (idx_main_v27 (ix2 r q)) = ix1 q :=
    funext fun a => by match a with | ⟨0, _⟩ => rfl
  have eB' : idx_main_v21 (idx_main_v22 (ix2 r q)) = ix1 q :=
    funext fun a => by match a with | ⟨0, _⟩ => rfl
  have eD : ∀ k : Fin 128, idx_main_v16 (idx_main_v17 (ix2 r k)) = ix1 r := fun k =>
    funext fun a => by match a with | ⟨0, _⟩ => rfl
  have hSelf : ∀ k : Fin 128, x0 (lidx_main_v25 (ix2 r q) k) * val_main_v24 (F := Ideal) x3 (ridx_main_v25 (ix2 r q) k)
      = x0 (ix2 r k) * x3 (ix2 q k) := fun k => by
    rw [val_main_v24_apply, eL, eR]
  have hNeigh : ∀ k : Fin 128, val_main_v18 (F := Ideal) x0 x1 x2 (lidx_main_v20 (ix2 r q) k)
        * val_main_v19 (F := Ideal) x5 (ridx_main_v20 (ix2 r q) k)
      = Ideal.div (nbrSum (val_main_v6 (F := Ideal) x0 x1) (val_main_v8 (F := Ideal) x2) r k)
          (max (inDeg (val_main_v8 (F := Ideal) x2) r) (Ideal.ofBits .f32 0x3F800000#32)) * x5 (ix2 q k) := fun k => by
    rw [val_main_v19_apply, eL', eR', val_main_v18_apply, val_main_v17_apply, val_main_v16_apply, eD,
      val_main_v15_apply, val_main_v14_apply, val_main_cst_3_apply, msgSum_apply, degree_apply,
      Ideal.hostDivf_def, Ideal.maximumf_def, Ideal.ofBits_def]
  rw [val_main_v29_apply, val_main_v28_apply, val_main_v25_apply, val_main_v27_apply, val_main_v26_apply,
    val_main_v23_apply, val_main_v20_apply, val_main_v22_apply, val_main_v21_apply, eB, eB', out_apply]
  simp only [Ideal.addf_def, hSelf, hNeigh]

end Cert.ReferenceIdeal.RefValue

end
-- ==== Proof.KernelBlock.lean ====
/-
  The kernel body's arithmetic at one element of its output block.

  A block is 5000 consecutive node rows. At row p of the block and output feature q the body computes
      (∑ₖ x[p, k] · ws[k, q] + bs[0, q]) + (∑ₖ (a[p, k] · s[p, 0]) · wn[k, q] + bn[0, q]),
  where x and a are the block's rows of the feature array and of the message sums, s its column of reciprocal
  degrees, ws and wn the two weight matrices already transposed (so the contraction runs over their rows), and bs, bn
  the biases as single rows. The changes of float format are the identity on the extended reals and each matrix
  product into a zero accumulator is the plain sum over the contracted axis.
-/
import proofs.«150576_j15977278341798_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The body's dimension numbers contract the left operand's columns against the right operand's rows. -/
abbrev D := dot_S5000x128_S128x128_S5000x128_1_0_0_1_n_n

theorem lhs_row (i : S5000x128.Idx) (c : D.contr.Idx) : (D.lhsIdx i c 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

theorem rhs_col (i : S5000x128.Idx) (c : D.contr.Idx) : (D.rhsIdx i c 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- ONE MATRIX PRODUCT of the body at (p, q): the sum over k of the left operand's (p, k) times the right's (k, q). -/
theorem dot_apply {φ₁ φ₂ : FTy} (l : FVec Ideal S5000x128 φ₁) (r : FVec Ideal S128x128 φ₂) (p : Fin 5000) (q : Fin 128) :
    matmul D none l r (constant S5000x128 .f32 0x00000000#32) (ix2 p q) = ∑ k : Fin 128, l (ix2 p k) * r (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]

/-- A single row broadcast down the block reads, at (p, q), the row's entry q. -/
theorem row_bcast_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- A single column broadcast across the block reads, at (p, k), the column's entry p. -/
theorem col_bcast_apply (s : FVec Ideal S5000x1 .f32) (p : Fin 5000) (k : Fin 128) :
    broadcastTo S5000x128 s broadcasts_S5000x1_S5000x128 (ix2 p k) = s (ix2 p 0) :=
  broadcastTo_apply s broadcasts_S5000x1_S5000x128 (ix2 p k) (ix2 p 0) (fun a => by
    match a with
    | ⟨0, _⟩ => show p.val = if (5000 : Nat) = 1 then 0 else p.val; rw [if_neg (by decide)]
    | ⟨1, _⟩ => show 0 = if (1 : Nat) = 1 then 0 else _; rw [if_pos rfl])

/-- THE BODY AT (p, q). -/
theorem body_apply (x a : Vec Ideal S5000x128 .f32) (s : Vec Ideal S5000x1 .f32) (ws : Vec Ideal S128x128 .bf16)
    (bs : Vec Ideal S1x128 .f32) (wn : Vec Ideal S128x128 .bf16) (bn : Vec Ideal S1x128 .f32) (p : Fin 5000) (q : Fin 128) :
    k0_pay1 x a s ws bs wn bn (ix2 p q) =
      (∑ k : Fin 128, x (ix2 p k) * ws (ix2 k q) + bs (ix2 0 q)) +
      (∑ k : Fin 128, (a (ix2 p k) * s (ix2 p 0)) * wn (ix2 k q) + bn (ix2 0 q)) := by
  unfold k0_pay1
  rw [addf_apply, addf_apply, addf_apply, dot_apply, dot_apply, row_bcast_apply, row_bcast_apply]
  simp only [shapeCast_self, truncf_apply, mulf_apply, col_bcast_apply]

end Cert.KernelIdeal.Block

end
-- ==== Proof.KernelHost.lean ====
/-
  What the kernel's program computes on the host before its one region, as functions of the argument arrays, read at
  an index.

  The gathered source rows get a column of ones appended, and ONE scatter-add by destination accumulates all 129
  columns: its first 128 columns are the message sums S[v, k], its last column the in-degree D[v], because an update
  row lands on node v exactly when its destination is v whatever the column (the row-scatter lemma), and the appended
  column holds 1.0 on every edge. The region is then given S (the first 128 columns) and the column of reciprocals
  1 / max(D[v], 1). Multiplying S[v, k] by that reciprocal is dividing it by max(D[v], 1) (SageSpec's law): the
  reference's quotient.
-/
import proofs.«150576_j15977278341798_2_alg».proof.Proof.Gen.KernelIdeal
import proofs.«150576_j15977278341798_2_alg».proof.Proof.LibScatterRows
import proofs.«150576_j15977278341798_2_alg».proof.Proof.SageSpec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Host

open Cert.KernelIdeal Cert.KernelIdeal.Gen
open Idealize.ShloMosaic Idealize.ShloMosaic.ValueIdx Cert.ScatterRows Cert.Sage

/-! ## The stages -/

/-- The gathered source rows: row e is the feature row of edge e's source node (a negative source wrapped once). -/
def msgs (x0 : FVec Ideal S50000x128 .f32) (x1 : IVec S1600000 32) : FVec Ideal S1600000x128 .f32 :=
  Host.gather gather_S50000x128_S1600000x1_S1600000x128_1_0_n_n_0_1_1128 x0
    (broadcastInDim S1600000x1 ![0] bcast_S1600000_S1600000x1_0
      (select (cmpi .slt x1 (broadcastInDim S1600000 ![] bcast_S_S1600000 (constantI S_ 32 0#32)))
        (addi x1 (broadcastInDim S1600000 ![] bcast_S_S1600000 (constantI S_ 32 50000#32))) x1))

/-- The destinations as a column. -/
def dstCol (x2 : IVec S1600000 32) : IVec S1600000x1 32 :=
  broadcastInDim S1600000x1 ![0] bcast_S1600000_S1600000x1_0 x2

/-- The appended column: 1.0 on every edge. -/
def onesCol : FVec Ideal S1600000x1 .f32 :=
  broadcastInDim S1600000x1 ![] bcast_S_S1600000x1 (constant S_ .f32 0x3F800000#32)

/-- The 129-column accumulator after the scatter-add. -/
def wide (x0 : FVec Ideal S50000x128 .f32) (x1 x2 : IVec S1600000 32) : FVec Ideal S50000x129 .f32 :=
  Host.scatterAdd scatter_S50000x129_S1600000x1_S1600000x129_1_0_0_1
    (broadcastInDim S50000x129 ![] bcast_S_S50000x129 (constant S_ .f32 0x00000000#32)) (dstCol x2)
    (concatenate S1600000x129 1 [⟨S1600000x128, msgs x0 x1⟩, ⟨S1600000x1, onesCol⟩]
      concatenates_S1600000x128_S1600000x1_S1600000x129_d1)

/-- Its first 128 columns: what the region is given as the message sums. -/
def aggArr (x0 : FVec Ideal S50000x128 .f32) (x1 x2 : IVec S1600000 32) : FVec Ideal S50000x128 .f32 :=
  extractStridedSlice S50000x128 ![0, 0] (wide x0 x1 x2) slices_S50000x129_S50000x128_0_0

/-- The column of reciprocal clamped degrees the region is given. -/
def invDeg (x0 : FVec Ideal S50000x128 .f32) (x1 x2 : IVec S1600000 32) : FVec Ideal S50000x1 .f32 :=
  Host.divf (broadcastInDim S50000x1 ![] bcast_S_S50000x1 (constant S_ .f32 0x3F800000#32))
    (maximumf (extractStridedSlice S50000x1 ![0, 128] (wide x0 x1 x2) slices_S50000x129_S50000x1_0_128)
      (broadcastInDim S50000x1 ![] bcast_S_S50000x1 (constant S_ .f32 0x3F800000#32)))

/-- The host quotient read at an index is the extended reals' quotient of the entries. -/
theorem hostDivf_apply {s : Shape} (a b : FVec Ideal s .f32) (i : s.Idx) : Host.divf a b i = Ideal.div (a i) (b i) := rfl

/-! ## The appended column and the accumulator's start -/

theorem onesCol_apply (e : Fin 1600000) : onesCol (ix2 e 0) = Ideal.ofBits .f32 0x3F800000#32 := by
  unfold onesCol
  exact broadcastInDim_apply _ bcast_S_S1600000x1 _ (ix2 e 0) ix0 (fun a => a.elim0)

theorem zeros_apply (i : S50000x129.Idx) :
    broadcastInDim S50000x129 ![] bcast_S_S50000x129 (constant (F := Ideal) S_ .f32 0x00000000#32) i = 0 := by
  rw [broadcastInDim_apply _ bcast_S_S50000x129 _ i ix0 (fun a => a.elim0), constant_apply, Ideal.ofBits_zero_f32]

theorem onesNode_apply (i : S50000x1.Idx) :
    broadcastInDim S50000x1 ![] bcast_S_S50000x1 (constant (F := Ideal) S_ .f32 0x3F800000#32) i
      = Ideal.ofBits .f32 0x3F800000#32 := by
  rw [broadcastInDim_apply _ bcast_S_S50000x1 _ i ix0 (fun a => a.elim0), constant_apply]

/-! ## The widened update rows, column by column -/

/-- Column k < 128 of update row e is the message's feature k. -/
theorem cat_msg (x0 : FVec Ideal S50000x128 .f32) (x1 : IVec S1600000 32) (e : Fin 1600000) (k : Fin 128) :
    concatenate S1600000x129 1 [⟨S1600000x128, msgs x0 x1⟩, ⟨S1600000x1, onesCol⟩]
        concatenates_S1600000x128_S1600000x1_S1600000x129_d1 (ix2 e ⟨k.val, by omega⟩) = msgs x0 x1 (ix2 e k) :=
  concatenate_pair_apply_left 1 (msgs x0 x1) onesCol concatenates_S1600000x128_S1600000x1_S1600000x129_d1
    (ix2 e ⟨k.val, by omega⟩) rfl (ix2 e k) (fun b => by
      match b with
      | ⟨0, _⟩ => rfl
      | ⟨1, _⟩ => rfl)

/-- Column 128 of update row e is the appended 1.0. -/
theorem cat_one (x0 : FVec Ideal S50000x128 .f32) (x1 : IVec S1600000 32) (e : Fin 1600000) :
    concatenate S1600000x129 1 [⟨S1600000x128, msgs x0 x1⟩, ⟨S1600000x1, onesCol⟩]
        concatenates_S1600000x128_S1600000x1_S1600000x129_d1 (ix2 e ⟨128, by omega⟩) = Ideal.ofBits .f32 0x3F800000#32 := by
  rw [concatenate_pair_apply_right 1 (msgs x0 x1) onesCol concatenates_S1600000x128_S1600000x1_S1600000x129_d1
    (ix2 e ⟨128, by omega⟩) rfl rfl (ix2 e 0) (fun b hb => by
      match b with
      | ⟨0, _⟩ => rfl
      | ⟨1, _⟩ => exact absurd rfl hb) rfl, onesCol_apply]

/-! ## The accumulator's columns -/

/-- Columns below 128 hold the message sums. -/
theorem wide_msg (x0 : FVec Ideal S50000x128 .f32) (x1 x2 : IVec S1600000 32) (v : Fin 50000) (k : Fin 128) :
    wide x0 x1 x2 (ix2 v ⟨k.val, by omega⟩) = nbrSum (msgs x0 x1) (dstCol x2) v k := by
  unfold wide nbrSum
  rw [host_scatterAdd_rows_apply scatter_S50000x129_S1600000x1_S1600000x129_1_0_0_1 rfl rfl rfl rfl, zeros_apply, zero_add]
  refine Finset.sum_congr rfl fun e _ => ?_
  exact cat_msg x0 x1 e k

/-- Column 128 holds the in-degree. -/
theorem wide_deg (x0 : FVec Ideal S50000x128 .f32) (x1 x2 : IVec S1600000 32) (v : Fin 50000) :
    wide x0 x1 x2 (ix2 v ⟨128, by omega⟩) = inDeg (dstCol x2) v := by
  unfold wide inDeg
  rw [host_scatterAdd_rows_apply scatter_S50000x129_S1600000x1_S1600000x129_1_0_0_1 rfl rfl rfl rfl, zeros_apply, zero_add]
  refine Finset.sum_congr rfl fun e _ => ?_
  exact cat_one x0 x1 e

/-! ## What the region is given -/

/-- The message sums the region is given. -/
theorem aggArr_apply (x0 : FVec Ideal S50000x128 .f32) (x1 x2 : IVec S1600000 32) (v : Fin 50000) (k : Fin 128) :
    aggArr x0 x1 x2 (ix2 v k) = nbrSum (msgs x0 x1) (dstCol x2) v k := by
  unfold aggArr
  rw [slice2_axis1_apply 0 (wide x0 x1 x2) slices_S50000x129_S50000x128_0_0 v k ⟨k.val, by omega⟩ (by simp), wide_msg]

/-- The reciprocal the region is given for node v: 1 / max(D[v], 1). -/
theorem invDeg_apply (x0 : FVec Ideal S50000x128 .f32) (x1 x2 : IVec S1600000 32) (v : Fin 50000) :
    invDeg x0 x1 x2 (ix2 v 0) = Ideal.div (Ideal.ofBits .f32 0x3F800000#32)
      (max (inDeg (dstCol x2) v) (Ideal.ofBits .f32 0x3F800000#32)) := by
  unfold invDeg
  rw [hostDivf_apply, maximumf_apply, onesNode_apply,
    slice2_axis1_apply 128 (wide x0 x1 x2) slices_S50000x129_S50000x1_0_128 v 0 ⟨128, by omega⟩ (by simp), wide_deg]

/-- THE SCALED MESSAGE SUM IS THE MEAN: the region's product of S[v, k] with the reciprocal is the quotient
    S[v, k] / max(D[v], 1). -/
theorem scaled_eq_mean (x0 : FVec Ideal S50000x128 .f32) (x1 x2 : IVec S1600000 32) (v : Fin 50000) (k : Fin 128) :
    aggArr x0 x1 x2 (ix2 v k) * invDeg x0 x1 x2 (ix2 v 0) =
      Ideal.div (nbrSum (msgs x0 x1) (dstCol x2) v k) (max (inDeg (dstCol x2) v) (Ideal.ofBits .f32 0x3F800000#32)) := by
  rw [aggArr_apply, invDeg_apply, mul_recip_clamped]

end Cert.KernelIdeal.Host

end
-- ==== Proof.KernelStaged.lean ====
/-
  The arrays the region finds on entry, as functions of the argument arrays.

  Window by window: the message sums are the first 128 columns of the accumulator and the reciprocal column is
  1 / max(D, 1) (both KernelHost's stages, verbatim); each weight matrix arrives transposed, so its entry (k, q) is
  the argument's entry (q, k) — the change of float format is the identity —; each bias arrives as a single row whose
  entry (0, q) is the argument's entry q, a reshape keeping the row-major position.
-/
import proofs.«150576_j15977278341798_2_alg».proof.Proof.Gen.KernelIdeal.Frame
import proofs.«150576_j15977278341798_2_alg».proof.Proof.KernelHost
import Idealize.ShloMosaic.Lib.StableHlo.Run
import Idealize.ShloMosaic.PureOps.Ideal

noncomputable section

namespace Cert.KernelIdeal.Staged

open Cert.KernelIdeal Cert.KernelIdeal.Gen Cert.KernelIdeal.Host
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The message sums the region stages. -/
theorem staged_agg (c : Dev nD) : (V m c main_v12 : S50000x128.Idx → EReal) =
    aggArr (m (c, Proc.tc.devRef main_arg0)) (m (c, Proc.tc.devRef main_arg1)) (m (c, Proc.tc.devRef main_arg2)) := by
  dsimp only [V, hostOps0]
  after_results
  unfold aggArr wide msgs dstCol onesCol
  with_reducible rfl

/-- The reciprocal column the region stages. -/
theorem staged_inv (c : Dev nD) : (V m c main_v17 : S50000x1.Idx → EReal) =
    invDeg (m (c, Proc.tc.devRef main_arg0)) (m (c, Proc.tc.devRef main_arg1)) (m (c, Proc.tc.devRef main_arg2)) := by
  dsimp only [V, hostOps0]
  after_results
  unfold invDeg wide msgs dstCol onesCol
  with_reducible rfl

/-- The self weight as staged: entry (k, q) is the argument's entry (q, k). -/
theorem staged_wself (c : Dev nD) (k q : Fin 128) :
    (V m c main_v19 : S128x128.Idx → EReal) (ix2 k q) = m (c, Proc.tc.devRef main_arg3) (ix2 q k) := by
  have h : (V m c main_v19 : S128x128.Idx → EReal) =
      truncf (F := Ideal) .bf16 (transpose S128x128 [1, 0] (m (c, Proc.tc.devRef main_arg3)) transposes_S128x128_S128x128_1_0) bitsLt_bf16_f32 := by
    dsimp only [V, hostOps0]
    after_results
  rw [h, truncf_apply]
  exact transpose_apply [1, 0] _ transposes_S128x128_S128x128_1_0 (ix2 k q) (ix2 q k) (fun b => by
    match b with
    | ⟨0, _⟩ => rfl
    | ⟨1, _⟩ => rfl)

/-- The neighbour weight as staged: entry (k, q) is the argument's entry (q, k). -/
theorem staged_wneigh (c : Dev nD) (k q : Fin 128) :
    (V m c main_v21 : S128x128.Idx → EReal) (ix2 k q) = m (c, Proc.tc.devRef main_arg5) (ix2 q k) := by
  have h : (V m c main_v21 : S128x128.Idx → EReal) =
      truncf (F := Ideal) .bf16 (transpose S128x128 [1, 0] (m (c, Proc.tc.devRef main_arg5)) transposes_S128x128_S128x128_1_0) bitsLt_bf16_f32 := by
    dsimp only [V, hostOps0]
    after_results
  rw [h, truncf_apply]
  exact transpose_apply [1, 0] _ transposes_S128x128_S128x128_1_0 (ix2 k q) (ix2 q k) (fun b => by
    match b with
    | ⟨0, _⟩ => rfl
    | ⟨1, _⟩ => rfl)

/-- A 128-vector reshaped to one row reads its entry q at (0, q). -/
theorem row_of_vec (b : S128.Idx → EReal) (q : Fin 128) :
    shapeCast S1x128 b shapeCasts_S128_S1x128 (ix2 0 q) = b (ix1 q) :=
  shapeCast_apply b shapeCasts_S128_S1x128 (ix2 0 q) (ix1 q) (by
    rw [Shape.rowMajor_val_one, Shape.rowMajor_val_two]
    show q.val = 0 * 128 + q.val
    omega)

/-- The self bias as staged: entry (0, q) is the argument's entry q. -/
theorem staged_bself (c : Dev nD) (q : Fin 128) :
    (V m c main_v22 : S1x128.Idx → EReal) (ix2 0 q) = m (c, Proc.tc.devRef main_arg4) (ix1 q) := by
  have h : (V m c main_v22 : S1x128.Idx → EReal) =
      fun i => shapeCast S1x128 (m (c, Proc.tc.devRef main_arg4)) shapeCasts_S128_S1x128 i := by
    dsimp only [V, hostOps0]
    after_results
    rfl
  rw [h]
  exact row_of_vec _ q

/-- The neighbour bias as staged: entry (0, q) is the argument's entry q. -/
theorem staged_bneigh (c : Dev nD) (q : Fin 128) :
    (V m c main_v23 : S1x128.Idx → EReal) (ix2 0 q) = m (c, Proc.tc.devRef main_arg6) (ix1 q) := by
  have h : (V m c main_v23 : S1x128.Idx → EReal) =
      fun i => shapeCast S1x128 (m (c, Proc.tc.devRef main_arg6)) shapeCasts_S128_S1x128 i := by
    dsimp only [V, hostOps0]
    after_results
    rfl
  rw [h]
  exact row_of_vec _ q

end Cert.KernelIdeal.Staged

end
-- ==== Proof.KernelArray.lean ====
/-
  From blocks to the array: after the run the kernel's result array is the layer's function of the argument arrays.

  The grid has ten points; point t owns the 5000 node rows t·5000 … t·5000 + 4999 and all 128 output features, and
  its block of every row-tiled input (features, message sums, reciprocal column) is the same rows; the weights and
  biases are whole at every point. So at element (p, q) of point t's block the body reads exactly the entries of node
  row r = t·5000 + p that the layer's formula names, the product of the message sum with the reciprocal being the mean
  (KernelHost), and what the point writes back is block t of the layer's function. Every node row lies in the block of
  point r / 5000, so the ten blocks cover the array.
-/
import proofs.«150576_j15977278341798_2_alg».proof.Proof.Gen.KernelIdeal.Value
import proofs.«150576_j15977278341798_2_alg».proof.Proof.KernelBlock
import proofs.«150576_j15977278341798_2_alg».proof.Proof.KernelStaged
import proofs.«150576_j15977278341798_2_alg».proof.Proof.SageSpec
import Idealize.ShloMosaic.Lib.Pipeline.Value

noncomputable section

open scoped BigOperators

namespace Cert.KernelIdeal.Arr

open Cert.KernelIdeal Cert.KernelIdeal.Gen Cert.KernelIdeal.Host Cert.KernelIdeal.Staged Cert.KernelIdeal.Block
open Idealize.ShloMosaic Idealize.ShloMosaic.TcCoe Idealize.SL.Sem Idealize.ShloMosaic.ValueIdx Cert.Sage
open Idealize.ShloMosaic.Pipeline (Dat)

variable (m : (ℓ : Loc nD τ sig) → Buf (Elt Ideal) ℓ) (ρ : Dev nD → PrngReg)

/-- The layer's function of device c's argument arrays. -/
def result (c : Dev nD) : S50000x128.Idx → EReal :=
  out (m (c, Proc.tc.devRef main_arg0)) (msgs (m (c, Proc.tc.devRef main_arg0)) (m (c, Proc.tc.devRef main_arg1)))
    (dstCol (m (c, Proc.tc.devRef main_arg2))) (m (c, Proc.tc.devRef main_arg3)) (m (c, Proc.tc.devRef main_arg4))
    (m (c, Proc.tc.devRef main_arg5)) (m (c, Proc.tc.devRef main_arg6))

theorem hz : (![0, 0] : Fin 2 → Nat) = fun _ => 0 := funext fun a => by fin_cases a <;> rfl

/-! ## Which blocks a point reads and writes -/

/-- The row-tiled windows (features, message sums, reciprocals, output) all sit at block row t and block column 0; the
    weights and biases at block (0, 0); there are ten block rows. Decided over the ten points. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 9 :=
  (by decide +kernel : ∀ t : Fin grid0.N, _)

/-- Every block row is some point's. -/
theorem idx_onto : ∀ b : Fin 10, ∃ t : Fin cfg0.N, win0_7.index t = ![b.val, 0] :=
  (by decide +kernel : ∀ b : Fin 10, ∃ t : Fin grid0.N, win0_7.index t = ![b.val, 0])

/-! ## What each window's block holds at point t, in terms of node row r = t·5000 + p

Each fact is stated for an ARBITRARY array of the window's type: reading a block through its window is reading the
array at the block's offset plus the coordinate inside the block, whatever the array holds. -/

section Reads
variable (c : Dev nD) (t : Fin cfg0.N) (p : Fin 5000) (r : Fin 50000)
  (hr : r.val = win0_7.index t (0 : Fin 2) * 5000 + p.val)
include hr

theorem blk_feat (A : Buf (Elt Ideal) ((c : Thread nD τ).loc (Pipeline.arrRef spec0 0))) (k : Fin 128) :
    ((cfg0.win 0).blk t).view.read (Elt Ideal) A (ix2 p k) = A (ix2 r k) := by
  have F := idx_facts t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

theorem blk_agg (A : Buf (Elt Ideal) ((c : Thread nD τ).loc (Pipeline.arrRef spec0 1))) (k : Fin 128) :
    ((cfg0.win 1).blk t).view.read (Elt Ideal) A (ix2 p k) = A (ix2 r k) := by
  have F := idx_facts t
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

theorem blk_inv (A : Buf (Elt Ideal) ((c : Thread nD τ).loc (Pipeline.arrRef spec0 2))) :
    ((cfg0.win 2).blk t).view.read (Elt Ideal) A (ix2 p 0) = A (ix2 r 0) := by
  have F := idx_facts t
  show A (((cfg0.win 2).blk t).view.emb (ix2 p 0)) = A (ix2 r 0)
  refine congrArg A (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

omit hr in
theorem blk_wself (A : Buf (Elt Ideal) ((c : Thread nD τ).loc (Pipeline.arrRef spec0 3))) (k q : Fin 128) :
    ((cfg0.win 3).blk t).view.read (Elt Ideal) A (ix2 k q) = A (ix2 k q) := by
  have F := idx_facts t
  show A (((cfg0.win 3).blk t).view.emb (ix2 k q)) = A (ix2 k q)
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

omit hr in
theorem blk_bself (A : Buf (Elt Ideal) ((c : Thread nD τ).loc (Pipeline.arrRef spec0 4))) (q : Fin 128) :
    ((cfg0.win 4).blk t).view.read (Elt Ideal) A (ix2 0 q) = A (ix2 0 q) := by
  have F := idx_facts t
  show A (((cfg0.win 4).blk t).view.emb (ix2 0 q)) = A (ix2 0 q)
  refine congrArg A (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

omit hr in
theorem blk_wneigh (A : Buf (Elt Ideal) ((c : Thread nD τ).loc (Pipeline.arrRef spec0 5))) (k q : Fin 128) :
    ((cfg0.win 5).blk t).view.read (Elt Ideal) A (ix2 k q) = A (ix2 k q) := by
  have F := idx_facts t
  show A (((cfg0.win 5).blk t).view.emb (ix2 k q)) = A (ix2 k q)
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

omit hr in
theorem blk_bneigh (A : Buf (Elt Ideal) ((c : Thread nD τ).loc (Pipeline.arrRef spec0 6))) (q : Fin 128) :
    ((cfg0.win 6).blk t).view.read (Elt Ideal) A (ix2 0 q) = A (ix2 0 q) := by
  have F := idx_facts t
  show A (((cfg0.win 6).blk t).view.emb (ix2 0 q)) = A (ix2 0 q)
  refine congrArg A (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- The array index under element (p, q) of point t's output block is (r, q). -/
theorem out_index (q : Fin 128) : ((cfg0.win 7).blk t).view.emb (ix2 p q) = ix2 r q := by
  have F := idx_facts t
  funext a
  refine Fin.ext ?_
  match a with
  | ⟨0, _⟩ => show win0_7.index t (0 : Fin 2) * 5000 + 1 * p.val = r.val; omega
  | ⟨1, _⟩ => show win0_7.index t (1 : Fin 2) * 128 + 1 * q.val = q.val; omega

/-- AT ONE ELEMENT: the body's value at (p, q) of point t's blocks is the layer's function at (r, q). -/
theorem point_eq (q : Fin 128) :
    k0_pay1 (iblk m c 0 t) (iblk m c 1 t) (iblk m c 2 t) (iblk m c 3 t) (iblk m c 4 t) (iblk m c 5 t) (iblk m c 6 t) (ix2 p q)
      = result m c (((cfg0.win 7).blk t).view.emb (ix2 p q)) := by
  -- the arrays the windows stage, as KernelStaged reads them
  have s0 : V m c (Pipeline.arrRef spec0 0) = m (c, Proc.tc.devRef main_arg0) := V_main_arg0 m c
  have s1 : (V m c (Pipeline.arrRef spec0 1) : S50000x128.Idx → EReal) =
      aggArr (m (c, Proc.tc.devRef main_arg0)) (m (c, Proc.tc.devRef main_arg1)) (m (c, Proc.tc.devRef main_arg2)) :=
    staged_agg m c
  have s2 : (V m c (Pipeline.arrRef spec0 2) : S50000x1.Idx → EReal) =
      invDeg (m (c, Proc.tc.devRef main_arg0)) (m (c, Proc.tc.devRef main_arg1)) (m (c, Proc.tc.devRef main_arg2)) :=
    staged_inv m c
  have s3 : ∀ k q : Fin 128, (V m c (Pipeline.arrRef spec0 3) : S128x128.Idx → EReal) (ix2 k q)
      = m (c, Proc.tc.devRef main_arg3) (ix2 q k) := staged_wself m c
  have s4 : ∀ q : Fin 128, (V m c (Pipeline.arrRef spec0 4) : S1x128.Idx → EReal) (ix2 0 q)
      = m (c, Proc.tc.devRef main_arg4) (ix1 q) := staged_bself m c
  have s5 : ∀ k q : Fin 128, (V m c (Pipeline.arrRef spec0 5) : S128x128.Idx → EReal) (ix2 k q)
      = m (c, Proc.tc.devRef main_arg5) (ix2 q k) := staged_wneigh m c
  have s6 : ∀ q : Fin 128, (V m c (Pipeline.arrRef spec0 6) : S1x128.Idx → EReal) (ix2 0 q)
      = m (c, Proc.tc.devRef main_arg6) (ix1 q) := staged_bneigh m c
  rw [out_index t p r hr q]
  unfold result
  rw [out_apply]
  refine (body_apply (iblk m c 0 t) (iblk m c 1 t) (iblk m c 2 t) (iblk m c 3 t) (iblk m c 4 t) (iblk m c 5 t)
    (iblk m c 6 t) p q).trans ?_
  unfold iblk
  rw [blk_bself c t _ q, blk_bneigh c t _ q, s4, s6]
  refine congrArg₂ (· + ·) (congrArg₂ (· + ·) (Finset.sum_congr rfl fun k _ => ?_) rfl)
    (congrArg₂ (· + ·) (Finset.sum_congr rfl fun k _ => ?_) rfl)
  · rw [blk_feat c t p r hr _ k, blk_wself c t _ k q, s0, s3]
  · rw [blk_agg c t p r hr _ k, blk_inv c t p r hr _, blk_wneigh c t _ k q, s1, s2, s5, scaled_eq_mean]

end Reads

/-! ## The array after the run -/

/-- WHAT POINT t WRITES BACK is block t of the layer's function. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have F := idx_facts t
  have hlt : win0_7.index t (0 : Fin 2) * 5000 + p.val < 50000 := by have := p.isLt; omega
  exact point_eq m c t p ⟨win0_7.index t (0 : Fin 2) * 5000 + p.val, hlt⟩ rfl q

/-- An index of the array is in point t's block iff each coordinate is in the block's range on its axis. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v24).slice (win0_7.rect t)).set ↔ _
  rw [View.set_slice_whole, Rect.mem_set_unit]
  exact Iff.rfl

/-- THE COVER: node row r lies in the block of point r / 5000. -/
theorem covered (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

/-- THE RESULT ARRAY after the run is the layer's function of the argument arrays. -/
theorem final (c : Dev nD) : (dats m 0 c).arrAt 7 cfg0.N = result m c :=
  (dats m 0 c).arrAt_eq_of_cover 7 (result m c) (fun t _ => flushed_eq m c t) covered

/-- The kernel's run re-posted: the result at the layer's function, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Arr

end
-- ==== Proof.SameMessages.lean ====
/-
  The two programs gather the same messages and scatter them by the same destination column.

  Both wrap a negative source index once, gather the named feature rows, and broadcast the destinations to a column:
  the same operations on the same arguments, so the two terms are one function of the feature array and the index
  arrays. Nothing is computed here: the equations hold by unfolding the two programs' names for these stages.
-/
import proofs.«150576_j15977278341798_2_alg».proof.Proof.Gen.ReferenceIdeal.Read
import proofs.«150576_j15977278341798_2_alg».proof.Proof.KernelHost

noncomputable section

namespace Cert.SameMessages

open Idealize.ShloMosaic

/-- The reference's gathered messages are the kernel program's. -/
theorem gathered_eq (x0 : FVec Ideal ⟨2, ![50000, 128]⟩ .f32) (x1 : IVec ⟨1, ![1600000]⟩ 32) :
    Cert.ReferenceIdeal.Read.val_main_v6 (F := Ideal) x0 x1 = Cert.KernelIdeal.Host.msgs x0 x1 := rfl

/-- The reference's destination column is the kernel program's. -/
theorem dstCol_eq (x2 : IVec ⟨1, ![1600000]⟩ 32) :
    Cert.ReferenceIdeal.Read.val_main_v8 (F := Ideal) x2 = Cert.KernelIdeal.Host.dstCol x2 := rfl

end Cert.SameMessages

end
-- ==== Proof.lean ====
/-
  A mean-aggregator graph layer against its jnp reference, equal over the extended reals.

  For node v and output feature o both programs compute
      (∑ₖ feat[v, k] · Wself[o, k] + bself[o]) + (∑ₖ mean[v, k] · Wneigh[o, k] + bneigh[o]),
  mean[v, k] = S[v, k] / max(D[v], 1), with S[v, k] the sum of feature k over the edges arriving at v and D[v] their
  number (SageSpec). They differ in two places only. The reference scatters the messages and a vector of ones
  separately; the kernel's program appends the ones as a 129th column and scatters once, which gives the same S and D
  because an update row lands on node v exactly when its destination is v, whatever the column (LibScatterRows,
  KernelHost). And the reference divides S by max(D, 1) where the kernel multiplies S by the reciprocal
  1 / max(D, 1): the same extended real for every numerator, since max(D, 1) ≥ 1 is never zero (SageSpec's law). Nothing
  else needs an argument: a matrix product into a zero accumulator on the chip and the host's contraction are the same
  sum, a change of float format is the identity, and the ten row blocks of the grid tile the node axis (KernelBlock,
  KernelStaged, KernelArray). The precondition that the float inputs are finite is never used.

  The idealized kernel is the kernel's own text read over the extended reals (no rewrite was applied), so the
  preservation claim is trivial; the frames are the generated ones, the reference's being its generated run with the
  result dropped.
-/
import proofs.«150576_j15977278341798_2_alg».proof.Defs
import proofs.«150576_j15977278341798_2_alg».proof.Proof.Gen.Kernel
import proofs.«150576_j15977278341798_2_alg».proof.Proof.Gen.Kernel.Skeleton
import proofs.«150576_j15977278341798_2_alg».proof.Proof.Gen.Kernel.Launch
import proofs.«150576_j15977278341798_2_alg».proof.Proof.Gen.Kernel.Points
import proofs.«150576_j15977278341798_2_alg».proof.Proof.Gen.Kernel.Frame
import proofs.«150576_j15977278341798_2_alg».proof.Proof.Gen.KernelIdeal
import proofs.«150576_j15977278341798_2_alg».proof.Proof.Gen.KernelIdeal.Skeleton
import proofs.«150576_j15977278341798_2_alg».proof.Proof.Gen.KernelIdeal.Launch
import proofs.«150576_j15977278341798_2_alg».proof.Proof.Gen.KernelIdeal.Points
import proofs.«150576_j15977278341798_2_alg».proof.Proof.Gen.KernelIdeal.Frame
import proofs.«150576_j15977278341798_2_alg».proof.Proof.Gen.ReferenceIdeal
import proofs.«150576_j15977278341798_2_alg».proof.Proof.Gen.Pre_finite_inputs
import proofs.«150576_j15977278341798_2_alg».proof.Proof.Gen.KernelIdeal.Value
import proofs.«150576_j15977278341798_2_alg».proof.Proof.Gen.ReferenceIdeal.Run
import proofs.«150576_j15977278341798_2_alg».proof.Proof.Gen.ReferenceIdeal.Read
import proofs.«150576_j15977278341798_2_alg».proof.Proof.RefIsSage
import proofs.«150576_j15977278341798_2_alg».proof.Proof.KernelArray
import proofs.«150576_j15977278341798_2_alg».proof.Proof.SameMessages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the arguments both programs end with the layer's function of those arguments: the kernel by
    its blocks (KernelArray), the reference operation by operation (RefIsSage), the gathered messages and the destination
    column being the same terms in both (SameMessages). -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_is_out,
    Cert.SameMessages.gathered_eq, Cert.SameMessages.dstCol_eq,
    (hagree c).1, (hagree c).2.1, (hagree c).2.2.1, (hagree c).2.2.2.1, (hagree c).2.2.2.2.1,
    (hagree c).2.2.2.2.2.1, (hagree c).2.2.2.2.2.2]
  unfold Cert.KernelIdeal.Arr.result
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
